-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S2x1600000 32) (main_arg2 : FVec F S128x128 .f32) (main_arg3 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S4000x128 : Shape := ⟨2, ![4000, 128]⟩
abbrev S4000x1 : Shape := ⟨2, ![4000, 1]⟩
abbrev S1x128 : Shape := ⟨2, ![1, 128]⟩

abbrev nBuf : Space → Nat
  | .hbm => 51
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .f32⟩
  | .hbm, ⟨9, _⟩ => ⟨S1600000, .f32⟩
  | .hbm, ⟨10, _⟩ => ⟨S_, .f32⟩
  | .hbm, ⟨11, _⟩ => ⟨S100000, .f32⟩
  | .hbm, ⟨12, _⟩ => ⟨S1600000x1, .i32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000x1, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x128, .f32⟩
  | .hbm, ⟨30, _⟩ => ⟨S_, .f32⟩
  | .hbm, ⟨31, _⟩ => ⟨S100000x128, .f32⟩
  | .hbm, ⟨32, _⟩ => ⟨S1600000x1, .i32⟩
  | .hbm, ⟨33, _⟩ => ⟨S100000x128, .f32⟩
  | .hbm, ⟨34, _⟩ => ⟨S100000x128, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x128, .f32⟩
  | .hbm, ⟨44, _⟩ => ⟨S_, .f32⟩
  | .hbm, ⟨45, _⟩ => ⟨S100000x128, .f32⟩
  | .hbm, ⟨46, _⟩ => ⟨S1600000x1, .i32⟩
  | .hbm, ⟨47, _⟩ => ⟨S100000x128, .f32⟩
  | .hbm, ⟨48, _⟩ => ⟨S128x128, .f32⟩
  | .hbm, ⟨49, _⟩ => ⟨S1x128, .f32⟩
  | .hbm, ⟨50, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x1, .f32⟩
  | .local _ .vmem, ⟨3, _⟩ => ⟨S4000x1, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S4000x1, .f32⟩
  | .local _ .vmem, ⟨9, _⟩ => ⟨S4000x1, .f32⟩
  | .local _ .vmem, ⟨10, _⟩ => ⟨S128x128, .f32⟩
  | .local _ .vmem, ⟨11, _⟩ => ⟨S1x128, .f32⟩
  | .local _ .vmem, ⟨12, _⟩ => ⟨S4000x128, .f32⟩
  | .local _ .vmem, ⟨13, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_5 : Ref sig .tc := ⟨.hbm, 35, rfl⟩
abbrev main_v24 : Ref sig .tc := ⟨.hbm, 36, rfl⟩
abbrev main_v25 : Ref sig .tc := ⟨.hbm, 37, rfl⟩
abbrev main_c_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x128 : S_.BroadcastsInDim S100000x128 (![] : Fin 0 → Fin S100000x128.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  transposes_S128x128_S128x128_1_0 : S128x128.Transposes [1, 0] S128x128
  shapeCasts_S128_S1x128 : S128.ShapeCasts S1x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x128.size a ≤ S100000x128.size a
  hwx1_4 : ∀ i : grid1.Coords, EltTy.bits .f32 = 32 ∨ (Rect.block (s := S100000x128) S4000x128.size (cc1_transform_4 i) (hinb1_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v22) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v33) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S4000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 63
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S_, .f32⟩
  | .hbm, ⟨18, _⟩ => ⟨S100000x128, .f32⟩
  | .hbm, ⟨19, _⟩ => ⟨S1600000x1, .i32⟩
  | .hbm, ⟨20, _⟩ => ⟨S100000x128, .f32⟩
  | .hbm, ⟨21, _⟩ => ⟨S_, .f32⟩
  | .hbm, ⟨22, _⟩ => ⟨S1600000, .f32⟩
  | .hbm, ⟨23, _⟩ => ⟨S_, .f32⟩
  | .hbm, ⟨24, _⟩ => ⟨S100000, .f32⟩
  | .hbm, ⟨25, _⟩ => ⟨S1600000x1, .i32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x128, .f32⟩
  | .hbm, ⟨32, _⟩ => ⟨S100000x128, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x128, .f32⟩
  | .hbm, ⟨42, _⟩ => ⟨S_, .f32⟩
  | .hbm, ⟨43, _⟩ => ⟨S100000x128, .f32⟩
  | .hbm, ⟨44, _⟩ => ⟨S1600000x1, .i32⟩
  | .hbm, ⟨45, _⟩ => ⟨S100000x128, .f32⟩
  | .hbm, ⟨46, _⟩ => ⟨S_, .f32⟩
  | .hbm, ⟨47, _⟩ => ⟨S1600000, .f32⟩
  | .hbm, ⟨48, _⟩ => ⟨S_, .f32⟩
  | .hbm, ⟨49, _⟩ => ⟨S100000, .f32⟩
  | .hbm, ⟨50, _⟩ => ⟨S1600000x1, .i32⟩
  | .hbm, ⟨51, _⟩ => ⟨S100000, .f32⟩
  | .hbm, ⟨52, _⟩ => ⟨S_, .f32⟩
  | .hbm, ⟨53, _⟩ => ⟨S100000, .f32⟩
  | .hbm, ⟨54, _⟩ => ⟨S100000, .f32⟩
  | .hbm, ⟨55, _⟩ => ⟨S100000x1, .f32⟩
  | .hbm, ⟨56, _⟩ => ⟨S100000x128, .f32⟩
  | .hbm, ⟨57, _⟩ => ⟨S100000x128, .f32⟩
  | .hbm, ⟨58, _⟩ => ⟨S128x128, .f32⟩
  | .hbm, ⟨59, _⟩ => ⟨S100000x128, .f32⟩
  | .hbm, ⟨60, _⟩ => ⟨S1x128, .f32⟩
  | .hbm, ⟨61, _⟩ => ⟨S100000x128, .f32⟩
  | .hbm, ⟨62, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_4 : Ref sig .tc := ⟨.hbm, 33, rfl⟩
abbrev main_v23 : Ref sig .tc := ⟨.hbm, 34, rfl⟩
abbrev main_v24 : Ref sig .tc := ⟨.hbm, 35, rfl⟩
abbrev main_c_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel program's run, with its RESULT buffer read.

  The program is four segments: host operations, the normalising region, host operations again (the second hop's
  gather and scatter-add), the fused normalise-and-linear region. Every unscoped buffer's contents at each boundary
  are a fold through those segments from the launch memory; after the last region they are `Gen.W4`. The statement
  below is the frame run with one more reading of the final state: the result buffer holds `W4` at its reference.
-/
import proofs.«161714_j5179730559344_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer then holds the fold's
    last contents at its reference, and the four argument arrays are as launched. -/
theorem run_result : θ_run defs (onTc (τ := τ) (main (F := F))) ⟨m, fun _ => 0, ρ⟩ (fun r => ∀ c : Dev nD,
      r.2.mem ((c.tc : Thread nD τ).loc main_v36) = W4 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v36 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.KernelIdeal.Hand

end
-- ==== Proof.HostStages.lean ====
/-
  The host operations around the two regions, named by what they compute, and the arrays each region finds.

  From the edge list `e` (row 0: source nodes, row 1: destination nodes) the program forms, on the host,
  * `inDegree e`: per node, the sum of a `1` for every edge that ends there; `clampedDegree e = max (inDegree e) 1`;
    `recipDegree e = 1 / clampedDegree e`, as one column;
  * `edgeSum … h`: per node, the sum over the edges that end there of row `src` of `h` (a gather of the source rows, then
    a scatter-add to the destination rows) — the gather and the scatter are carried as the host's own functions and
    never opened.
  The first region finds `edgeSum … x` and `recipDegree e`; the second finds `edgeSum …` of the first region's output,
  the same `recipDegree e`, the transposed weights and the bias as one row.
-/
import proofs.«161714_j5179730559344_1_alg».proof.Proof.Gen.KernelIdeal.Frame
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

/-! ## The host functions -/

/-- Row `r` of the edge list as a vector of node ids. -/
def edgeRow0 (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000
def edgeRow1 (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- The source ids as gather indices: a negative id counts from the end, then one column. -/
def gatherCol (src : (⟨S1600000, .i32⟩ : BufTy).Contents (Elt F)) : (⟨S1600000x1, .i32⟩ : BufTy).Contents (Elt F) :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The destination ids as scatter indices: one column. -/
def scatterCol (dst : (⟨S1600000, .i32⟩ : BufTy).Contents (Elt F)) : (⟨S1600000x1, .i32⟩ : BufTy).Contents (Elt F) :=
  broadcastInDim S1600000x1 ![0] bcast_S1600000_S1600000x1_0 dst

/-- Per destination node, the sum of the source rows of `h` over the edges ending there. -/
def edgeSumOf (src dst : (⟨S1600000, .i32⟩ : BufTy).Contents (Elt F)) (h : (⟨S100000x128, .f32⟩ : BufTy).Contents (Elt F)) :
    (⟨S100000x128, .f32⟩ : BufTy).Contents (Elt F) :=
  Host.scatterAdd scatter_S100000x128_S1600000x1_S1600000x128_1_0_0_1 (broadcastInDim S100000x128 ![] bcast_S_S100000x128 (constant (F := F) S_ .f32 0x00000000#32))
    (scatterCol (F := F) dst) (Host.gather gather_S100000x128_S1600000x1_S1600000x128_1_0_n_n_0_1_1128 h (gatherCol (F := F) src))

/-- Per node, the number of edges ending there (a sum of ones). -/
def inDegreeOf (dst : (⟨S1600000, .i32⟩ : BufTy).Contents (Elt F)) : (⟨S100000, .f32⟩ : BufTy).Contents (Elt F) :=
  Host.scatterAdd scatter_S100000_S1600000x1_S1600000_n_0_0_1 (broadcastInDim S100000 ![] bcast_S_S100000 (constant (F := F) S_ .f32 0x00000000#32))
    (scatterCol (F := F) dst) (broadcastInDim S1600000 ![] bcast_S_S1600000 (constant (F := F) S_ .f32 0x3F800000#32))

/-- The degree clamped below by one. -/
def clampedDegreeOf (dst : (⟨S1600000, .i32⟩ : BufTy).Contents (Elt F)) : (⟨S100000, .f32⟩ : BufTy).Contents (Elt F) :=
  maximumf (inDegreeOf (F := F) dst) (broadcastInDim S100000 ![] bcast_S_S100000 (constant (F := F) S_ .f32 0x3F800000#32))

/-- Its reciprocal, as one column. -/
def recipDegreeOf (dst : (⟨S1600000, .i32⟩ : BufTy).Contents (Elt F)) : (⟨S100000x1, .f32⟩ : BufTy).Contents (Elt F) :=
  shapeCast _ (Host.divf (broadcastInDim S100000 ![] bcast_S_S100000 (constant (F := F) S_ .f32 0x3F800000#32)) (clampedDegreeOf (F := F) dst))
    shapeCasts_S100000_S100000x1

variable (m : (ℓ : Loc nD τ sig) → Buf (Elt F) ℓ) (ρ : Dev nD → PrngReg)

/-! ## What the first region finds -/

theorem first_src (c : Dev nD) : V1 m ρ c main_v1 = edgeRow0 (F := F) (m ((c : Thread nD τ).loc main_arg1)) := by
  show StableHlo.after hostOps0 (W0 m ρ c) (Proc.devRef .tc main_v1) = _
  after_results_simp <;> rfl

theorem first_dst (c : Dev nD) : V1 m ρ c main_v3 = edgeRow1 (F := F) (m ((c : Thread nD τ).loc main_arg1)) := by
  show StableHlo.after hostOps0 (W0 m ρ c) (Proc.devRef .tc main_v3) = _
  after_results_simp <;> rfl

theorem first_sum (c : Dev nD) : V1 m ρ c main_v22
    = edgeSumOf (F := F) (edgeRow0 (F := F) (m ((c : Thread nD τ).loc main_arg1))) (edgeRow1 (F := F) (m ((c : Thread nD τ).loc main_arg1)))
        (m ((c : Thread nD τ).loc main_arg0)) := by
  show StableHlo.after hostOps0 (W0 m ρ c) (Proc.devRef .tc main_v22) = _
  after_results_simp <;> rfl

theorem first_recip (c : Dev nD) : V1 m ρ c main_v12 = recipDegreeOf (F := F) (edgeRow1 (F := F) (m ((c : Thread nD τ).loc main_arg1))) := by
  show StableHlo.after hostOps0 (W0 m ρ c) (Proc.devRef .tc main_v12) = _
  after_results_simp <;> rfl

theorem first_weights (c : Dev nD) : V1 m ρ c main_arg2 = m ((c : Thread nD τ).loc main_arg2) := by
  show StableHlo.after hostOps0 (W0 m ρ c) (Proc.devRef .tc main_arg2) = _
  after_results_simp <;> rfl

theorem first_bias (c : Dev nD) : V1 m ρ c main_arg3 = m ((c : Thread nD τ).loc main_arg3) := by
  show StableHlo.after hostOps0 (W0 m ρ c) (Proc.devRef .tc main_arg3) = _
  after_results_simp <;> rfl

/-! ## What the second region finds, over what the first one left -/

theorem second_sum (c : Dev nD) : V3 m ρ c main_v33
    = edgeSumOf (F := F) (V2 m ρ c main_v1) (V2 m ρ c main_v3) (V2 m ρ c main_v23) := by
  show StableHlo.after hostOps1 (W2 m ρ c) (Proc.devRef .tc main_v33) = _
  after_results_simp <;> rfl

theorem second_recip (c : Dev nD) : V3 m ρ c main_v12 = V2 m ρ c main_v12 := by
  show StableHlo.after hostOps1 (W2 m ρ c) (Proc.devRef .tc main_v12) = _
  after_results_simp <;> rfl

theorem second_weights (c : Dev nD) : V3 m ρ c main_v34
    = transpose S128x128 [1, 0] (V2 m ρ c main_arg2) transposes_S128x128_S128x128_1_0 := by
  show StableHlo.after hostOps1 (W2 m ρ c) (Proc.devRef .tc main_v34) = _
  after_results_simp <;> rfl

theorem second_bias (c : Dev nD) : V3 m ρ c main_v35 = shapeCast _ (V2 m ρ c main_arg3) shapeCasts_S128_S1x128 := by
  show StableHlo.after hostOps1 (W2 m ρ c) (Proc.devRef .tc main_v35) = _
  after_results_simp <;> rfl

end Cert.KernelIdeal.Hand

end
-- ==== Proof.NormalizeArray.lean ====
/-
  The normalising region, as ONE function of the arrays it finds.

  The region walks the node rows in 25 blocks of 4000. At a point it loads rows `4000·t … 4000·t + 3999` of the edge sums
  (all 128 channels) and the same rows of the one-column reciprocal-degree array, multiplies every channel of a row by
  that row's reciprocal, and writes the block back to the same rows of the output. A block's element `(r, k)` therefore
  sits at array row `4000·t + r`, and the 25 blocks tile the 100000 rows: the output array ends holding
  `s (n, k) · r (n, 0)` at every index `(n, k)`.
-/
import proofs.«161714_j5179730559344_1_alg».proof.Proof.Gen.KernelIdeal.Frame
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem zero_off : (![0, 0] : Fin 2 → Nat) = fun _ => 0 := funext fun a => by fin_cases a <;> rfl

/-- The one-column index of a node row: `(n, k) ↦ (n, 0)`. -/
abbrev rowCol (i : S100000x128.Idx) : S100000x1.Idx := fun a => match a with
  | ⟨0, _⟩ => ⟨(i 0).val, (i 0).isLt⟩
  | ⟨1, _⟩ => ⟨0, Nat.one_pos⟩

/-- The same inside a block of 4000 rows. -/
abbrev rowColB (j : S4000x128.Idx) : S4000x1.Idx := fun a => match a with
  | ⟨0, _⟩ => ⟨(j 0).val, (j 0).isLt⟩
  | ⟨1, _⟩ => ⟨0, Nat.one_pos⟩

/-- Every channel of a node row scaled by that row's one-column factor. -/
abbrev rowScaled (s : S100000x128.Idx → Elt F .f32) (r : S100000x1.Idx → Elt F .f32) : S100000x128.Idx → Elt F .f32 :=
  fun i => FloatOps.mulf (s i) (r (rowCol i))

/-- The body's stored value at a block index: the loaded edge-sum element times its row's loaded factor. -/
theorem normalize_pay_apply (x0 : Vec F S4000x128 .f32) (x1 : Vec F S4000x1 .f32) (j : S4000x128.Idx) :
    k0_pay1 x0 x1 j = FloatOps.mulf (x0 j) (x1 (rowColB j)) := by
  unfold k0_pay1
  show FloatOps.mulf (shapeCast S4000x128 x0 shapeCasts_S4000x128_S4000x128 j)
      (broadcastTo S4000x128 (shapeCast S4000x1 x1 shapeCasts_S4000x1_S4000x1) broadcasts_S4000x1_S4000x128 j) = _
  rw [shapeCast_self, shapeCast_self]
  refine congrArg (FloatOps.mulf (x0 j)) ?_
  exact broadcastTo_apply x1 broadcasts_S4000x1_S4000x128 j (rowColB j) (fun a => match a with
    | ⟨0, _⟩ => by show (j 0).val = if (4000 : Nat) = 1 then 0 else (j 0).val; rw [if_neg (by decide)]
    | ⟨1, _⟩ => by show 0 = if (1 : Nat) = 1 then 0 else (j 1).val; rw [if_pos rfl])

/-- The printed index maps over the grid: all three windows move down the rows together, one block per point. -/
theorem normalize_idx : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the row-scaled array. -/
theorem normalize_flushed (c : Dev nD) (t : Fin cfg0.N) :
    (dat0 V c).flushed 2 t = ((cfg0.win 2).blk t).view.read (Elt F) (rowScaled (V c main_v22) (V c main_v12)) := by
  show (cfg0.win 2).cut (grid0.coords t) ((dat0 V c).after 2 t) = _
  rw [after0_2]
  unfold out0_2
  rw [View.canon_unit_zero zero_off]
  simp only [View.ld_unit_zero (S := S4000x128) zero_off, View.ld_unit_zero (S := S4000x1) zero_off]
  obtain ⟨e0, e1, e2, e3, e4, e5⟩ := normalize_idx t
  funext j
  refine (normalize_pay_apply (iblk0 V c 0 t) (iblk0 V c 1 t) j).trans ?_
  show FloatOps.mulf (V c main_v22 (((cfg0.win 0).blk t).view.emb j)) (V c main_v12 (((cfg0.win 1).blk t).view.emb (rowColB j)))
    = FloatOps.mulf (V c main_v22 (((cfg0.win 2).blk t).view.emb j)) (V c main_v12 (rowCol (((cfg0.win 2).blk t).view.emb j)))
  have h0 : ((cfg0.win 0).blk t).view.emb j = ((cfg0.win 2).blk t).view.emb j := by
    funext a; apply Fin.ext
    match a with
    | ⟨0, _⟩ => show win0_0.index t (0 : Fin 2) * 4000 + 1 * (j 0).val = win0_2.index t (0 : Fin 2) * 4000 + 1 * (j 0).val; omega
    | ⟨1, _⟩ => show win0_0.index t (1 : Fin 2) * 128 + 1 * (j 1).val = win0_2.index t (1 : Fin 2) * 128 + 1 * (j 1).val; omega
  have h1 : ((cfg0.win 1).blk t).view.emb (rowColB j) = rowCol (((cfg0.win 2).blk t).view.emb j) := by
    funext a; apply Fin.ext
    match a with
    | ⟨0, _⟩ => show win0_1.index t (0 : Fin 2) * 4000 + 1 * (j 0).val = win0_2.index t (0 : Fin 2) * 4000 + 1 * (j 0).val; omega
    | ⟨1, _⟩ => show win0_1.index t (1 : Fin 2) * 1 + 1 * 0 = 0; omega
  rw [h0, h1]

/-- An index is in point `t`'s output block iff each coordinate is in the block's range on its axis. -/
theorem normalize_mem_blk (t : Fin cfg0.N) (i : S100000x128.Idx) :
    i ∈ ((cfg0.win 2).blk t).view.set ↔ ∀ a : Fin 2, win0_2.index t a * S4000x128.size a ≤ (i a).val ∧ (i a).val < win0_2.index t a * S4000x128.size a + S4000x128.size a := by
  show i ∈ ((View.whole main_v23).slice (win0_2.rect t)).set ↔ _
  rw [View.set_slice_whole, Rect.mem_set_unit]
  exact Iff.rfl

/-- Row `n` lies in the block of point `n / 4000`: the blocks cover the array. -/
theorem normalize_cover (i : S100000x128.Idx) :
    ∃ t : Fin cfg0.N, (cfg0.win 2).flush t = true ∧ i ∈ ((cfg0.win 2).blk t).view.set := by
  have h0 : (i 0).val < 100000 := (i 0).isLt
  have h1 : (i 1).val < 128 := (i 1).isLt
  have hN : cfg0.N = 25 := N_0
  have ht : (i 0).val / 4000 < cfg0.N := by rw [hN]; omega
  refine ⟨⟨(i 0).val / 4000, ht⟩, flush0_2 _, ?_⟩
  rw [normalize_mem_blk]
  obtain ⟨-, -, -, -, e4, e5⟩ := normalize_idx ⟨(i 0).val / 4000, ht⟩
  have e4' : win0_2.index ⟨(i 0).val / 4000, ht⟩ (0 : Fin 2) = (i 0).val / 4000 := e4
  intro a
  match a with
  | ⟨0, _⟩ =>
    show win0_2.index ⟨(i 0).val / 4000, ht⟩ (0 : Fin 2) * 4000 ≤ (i 0).val ∧ (i 0).val < win0_2.index ⟨(i 0).val / 4000, ht⟩ (0 : Fin 2) * 4000 + 4000
    rw [e4']; omega
  | ⟨1, _⟩ =>
    show win0_2.index ⟨(i 0).val / 4000, ht⟩ (1 : Fin 2) * 128 ≤ (i 1).val ∧ (i 1).val < win0_2.index ⟨(i 0).val / 4000, ht⟩ (1 : Fin 2) * 128 + 128
    rw [e5]; omega

/-- The output array after the region: the edge sums found at entry, each row scaled by its entry factor. -/
theorem normalize_final (c : Dev nD) :
    (dat0 V c).arrAt 2 cfg0.N = rowScaled (V c main_v22) (V c main_v12) :=
  (dat0 V c).arrAt_eq_of_cover 2 (rowScaled (V c main_v22) (V c main_v12)) (fun t _ => normalize_flushed V c t) normalize_cover

/-- The factor array is an input of the region: it leaves as it entered. -/
theorem normalize_keeps_factor (c : Dev nD) : (dat0 V c).arrAt 1 cfg0.N = V c main_v12 :=
  ((dat0 V c).arrAt_in 1 rfl _).trans (A_eq0 V c 1)

end Cert.KernelIdeal.Hand

end
-- ==== Proof.LinearArray.lean ====
/-
  The fused normalise-and-linear region at the ideal values, as ONE function of the arrays it finds.

  The region again walks the node rows in 25 blocks of 4000. At a point it loads rows `4000·t …` of the second hop's
  edge sums and of the one-column reciprocal-degree array, and (whole, at every point) the transposed weight matrix
  and the one-row bias. It scales each row by its reciprocal, multiplies the scaled block by the weights on the matrix
  unit into a zero accumulator, and adds the bias row. Over the extended reals the changes of float format are the
  identity and the matrix product is the plain sum over the 128 contracted channels, so the element written at block
  index `(r, o)` is `Σ_k (s (4000·t + r, k) · ρ (4000·t + r, 0)) · wᵀ (k, o) + b (0, o)`; the blocks tile the rows, and
  the output array ends holding that expression at every `(n, o)`.
-/
import proofs.«161714_j5179730559344_1_alg».proof.Proof.Gen.KernelIdeal.Frame
import proofs.«161714_j5179730559344_1_alg».proof.Proof.NormalizeArray
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-! ## Indices: a row's `k`-th channel, the weight at `(k, o)`, the bias at `o` -/

abbrev chanAt (i : S100000x128.Idx) (k : Fin 128) : S100000x128.Idx := fun a => match a with
  | ⟨0, _⟩ => ⟨(i 0).val, (i 0).isLt⟩
  | ⟨1, _⟩ => ⟨k.val, k.isLt⟩
abbrev weightAt (i : S100000x128.Idx) (k : Fin 128) : S128x128.Idx := fun a => match a with
  | ⟨0, _⟩ => ⟨k.val, k.isLt⟩
  | ⟨1, _⟩ => ⟨(i 1).val, (i 1).isLt⟩
abbrev biasAt (i : S100000x128.Idx) : S1x128.Idx := fun a => match a with
  | ⟨0, _⟩ => ⟨0, Nat.one_pos⟩
  | ⟨1, _⟩ => ⟨(i 1).val, (i 1).isLt⟩
abbrev chanAtB (j : S4000x128.Idx) (k : Fin 128) : S4000x128.Idx := fun a => match a with
  | ⟨0, _⟩ => ⟨(j 0).val, (j 0).isLt⟩
  | ⟨1, _⟩ => ⟨k.val, k.isLt⟩
abbrev weightAtB (j : S4000x128.Idx) (k : Fin 128) : S128x128.Idx := fun a => match a with
  | ⟨0, _⟩ => ⟨k.val, k.isLt⟩
  | ⟨1, _⟩ => ⟨(j 1).val, (j 1).isLt⟩
abbrev biasAtB (j : S4000x128.Idx) : S1x128.Idx := fun a => match a with
  | ⟨0, _⟩ => ⟨0, Nat.one_pos⟩
  | ⟨1, _⟩ => ⟨(j 1).val, (j 1).isLt⟩

/-- The linear head over row-scaled sums: `Σ_k (s (n, k) · ρ (n, 0)) · wᵀ (k, o) + b (0, o)`. -/
abbrev scaledHead (s : S100000x128.Idx → EReal) (r : S100000x1.Idx → EReal) (wt : S128x128.Idx → EReal) (b : S1x128.Idx → EReal) :
    S100000x128.Idx → EReal :=
  fun i => (∑ k : Fin 128, (s (chanAt i k) * r (rowCol i)) * wt (weightAt i k)) + b (biasAt i)

/-! ## The block matrix product's operand indices -/

theorem blockDot_lhs0 (j : S4000x128.Idx) (q : dot_S4000x128_S128x128_S4000x128_1_0_0_1_n_n.contr.Idx) : (dot_S4000x128_S128x128_S4000x128_1_0_0_1_n_n.lhsIdx j q 0).val = (j 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem blockDot_lhs1 (j : S4000x128.Idx) (q : dot_S4000x128_S128x128_S4000x128_1_0_0_1_n_n.contr.Idx) : (dot_S4000x128_S128x128_S4000x128_1_0_0_1_n_n.lhsIdx j q 1).val = (q ⟨0, by decide⟩).val :=
  dot_S4000x128_S128x128_S4000x128_1_0_0_1_n_n.lhsIdx_val_of_single rfl j q
theorem blockDot_rhs0 (j : S4000x128.Idx) (q : dot_S4000x128_S128x128_S4000x128_1_0_0_1_n_n.contr.Idx) : (dot_S4000x128_S128x128_S4000x128_1_0_0_1_n_n.rhsIdx j q 0).val = (q ⟨0, by decide⟩).val :=
  dot_S4000x128_S128x128_S4000x128_1_0_0_1_n_n.rhsIdx_val_of_single rfl j q
theorem blockDot_rhs1 (j : S4000x128.Idx) (q : dot_S4000x128_S128x128_S4000x128_1_0_0_1_n_n.contr.Idx) : (dot_S4000x128_S128x128_S4000x128_1_0_0_1_n_n.rhsIdx j q 1).val = (j 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-! ## The body's stored value at a block index -/

/-- The stored element `(r, o)`: the loaded row `r` scaled by its loaded factor, contracted with column `o` of the
    loaded weights, plus the loaded bias at `o`. -/
theorem linear_pay_apply (x0 : Vec Ideal S4000x128 .f32) (x1 : Vec Ideal S4000x1 .f32) (x2 : Vec Ideal S128x128 .f32) (x3 : Vec Ideal S1x128 .f32)
    (j : S4000x128.Idx) :
    k1_pay1 (F := Ideal) x0 x1 x2 x3 j
      = (∑ k : Fin 128, (x0 (chanAtB j k) * x1 (rowColB j)) * x2 (weightAtB j k)) + x3 (biasAtB j) := by
  unfold k1_pay1
  show (FloatOps.matmul dot_S4000x128_S128x128_S4000x128_1_0_0_1_n_n none
        (truncf .bf16 (mulf (shapeCast S4000x128 x0 shapeCasts_S4000x128_S4000x128)
          (broadcastTo S4000x128 (shapeCast S4000x1 x1 shapeCasts_S4000x1_S4000x1) broadcasts_S4000x1_S4000x128)) bitsLt_bf16_f32)
        (truncf .bf16 (shapeCast S128x128 x2 shapeCasts_S128x128_S128x128) bitsLt_bf16_f32)
        (constant (F := Ideal) S4000x128 .f32 0x00000000#32) j)
      + (broadcastTo S4000x128 (shapeCast S1x128 x3 shapeCasts_S1x128_S1x128) broadcasts_S1x128_S4000x128 j) = _
  simp only [shapeCast_self]
  have hb : broadcastTo S4000x128 x3 broadcasts_S1x128_S4000x128 j = x3 (biasAtB j) :=
    broadcastTo_apply x3 broadcasts_S1x128_S4000x128 j (biasAtB j) (fun a => match a with
      | ⟨0, _⟩ => by show 0 = if (1 : Nat) = 1 then 0 else (j 0).val; rw [if_pos rfl]
      | ⟨1, _⟩ => by show (j 1).val = if (128 : Nat) = 1 then 0 else (j 1).val; rw [if_neg (by decide)])
  rw [hb]
  refine congrArg (· + x3 (biasAtB j)) ?_
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx j ((ValueIdx.contrEquiv1 dot_S4000x128_S128x128_S4000x128_1_0_0_1_n_n 128 rfl rfl).symm k) = chanAtB j k := funext fun a => Fin.ext (by
    match a with
    | ⟨0, _⟩ => exact blockDot_lhs0 _ _
    | ⟨1, _⟩ => exact (blockDot_lhs1 _ _).trans hk)
  have er : dot_S4000x128_S128x128_S4000x128_1_0_0_1_n_n.rhsIdx j ((ValueIdx.contrEquiv1 dot_S4000x128_S128x128_S4000x128_1_0_0_1_n_n 128 rfl rfl).symm k) = weightAtB j k := funext fun a => Fin.ext (by
    match a with
    | ⟨0, _⟩ => exact (blockDot_rhs0 _ _).trans hk
    | ⟨1, _⟩ => exact blockDot_rhs1 _ _)
  rw [el, er]
  show (x0 (chanAtB j k) * broadcastTo S4000x128 x1 broadcasts_S4000x1_S4000x128 (chanAtB j k)) * x2 (weightAtB j k) = _
  rw [broadcastTo_apply x1 broadcasts_S4000x1_S4000x128 (chanAtB j k) (rowColB j) (fun a => match a with
    | ⟨0, _⟩ => by show (j 0).val = if (4000 : Nat) = 1 then 0 else (j 0).val; rw [if_neg (by decide)]
    | ⟨1, _⟩ => by show 0 = if (1 : Nat) = 1 then 0 else k.val; rw [if_pos rfl])]

/-- The same against whole arrays: when the loaded blocks are rows of `s` and `r` and all of `wt` and `b`, read where
    array index `i` says, the stored element is the linear head over the row-scaled sums at `i`. -/
theorem linear_pay_at (s : S100000x128.Idx → EReal) (r : S100000x1.Idx → EReal) (wt : S128x128.Idx → EReal) (b : S1x128.Idx → EReal)
    (x0 : Vec Ideal S4000x128 .f32) (x1 : Vec Ideal S4000x1 .f32) (x2 : Vec Ideal S128x128 .f32) (x3 : Vec Ideal S1x128 .f32)
    (j : S4000x128.Idx) (i : S100000x128.Idx)
    (h0 : ∀ k : Fin 128, x0 (chanAtB j k) = s (chanAt i k)) (h1 : x1 (rowColB j) = r (rowCol i))
    (h2 : ∀ k : Fin 128, x2 (weightAtB j k) = wt (weightAt i k)) (h3 : x3 (biasAtB j) = b (biasAt i)) :
    k1_pay1 (F := Ideal) x0 x1 x2 x3 j = scaledHead s r wt b i := by
  rw [linear_pay_apply]
  simp only [h0, h1, h2, h3]

/-! ## From blocks to the array -/

/-- The printed index maps over the grid: the edge sums, the factors and the output move down the rows together; the
    weights and the bias stay at their one block. -/
theorem linear_idx : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` writes back is block `t` of the linear head over the row-scaled sums. -/
theorem linear_flushed (c : Dev nD) (t : Fin cfg1.N) :
    (dat1 V c).flushed 4 t = ((cfg1.win 4).blk t).view.read (Elt Ideal)
      (scaledHead (V c main_v33) (V c main_v12) (V c main_v34) (V c main_v35)) := by
  show (cfg1.win 4).cut (grid1.coords t) ((dat1 V c).after 4 t) = _
  rw [after1_4]
  unfold out1_4
  rw [View.canon_unit_zero zero_off]
  simp only [View.ld_unit_zero (S := S4000x128) zero_off, View.ld_unit_zero (S := S4000x1) zero_off,
    View.ld_unit_zero (S := S128x128) zero_off, View.ld_unit_zero (S := S1x128) zero_off]
  obtain ⟨e0, e1, e2, e3, e4, e5, e6, e7, e8, e9⟩ := linear_idx t
  funext j
  have h0 : ∀ k : Fin 128, ((cfg1.win 0).blk t).view.emb (chanAtB j k) = chanAt (((cfg1.win 4).blk t).view.emb j) k := fun k => by
    funext a; apply Fin.ext
    match a with
    | ⟨0, _⟩ => show win1_0.index t (0 : Fin 2) * 4000 + 1 * (j 0).val = win1_4.index t (0 : Fin 2) * 4000 + 1 * (j 0).val; omega
    | ⟨1, _⟩ => show win1_0.index t (1 : Fin 2) * 128 + 1 * k.val = k.val; omega
  have h1 : ((cfg1.win 1).blk t).view.emb (rowColB j) = rowCol (((cfg1.win 4).blk t).view.emb j) := by
    funext a; apply Fin.ext
    match a with
    | ⟨0, _⟩ => show win1_1.index t (0 : Fin 2) * 4000 + 1 * (j 0).val = win1_4.index t (0 : Fin 2) * 4000 + 1 * (j 0).val; omega
    | ⟨1, _⟩ => show win1_1.index t (1 : Fin 2) * 1 + 1 * 0 = 0; omega
  have h2 : ∀ k : Fin 128, ((cfg1.win 2).blk t).view.emb (weightAtB j k) = weightAt (((cfg1.win 4).blk t).view.emb j) k := fun k => by
    funext a; apply Fin.ext
    match a with
    | ⟨0, _⟩ => show win1_2.index t (0 : Fin 2) * 128 + 1 * k.val = k.val; omega
    | ⟨1, _⟩ => show win1_2.index t (1 : Fin 2) * 128 + 1 * (j 1).val = win1_4.index t (1 : Fin 2) * 128 + 1 * (j 1).val; omega
  have h3 : ((cfg1.win 3).blk t).view.emb (biasAtB j) = biasAt (((cfg1.win 4).blk t).view.emb j) := by
    funext a; apply Fin.ext
    match a with
    | ⟨0, _⟩ => show win1_3.index t (0 : Fin 2) * 1 + 1 * 0 = 0; omega
    | ⟨1, _⟩ => show win1_3.index t (1 : Fin 2) * 128 + 1 * (j 1).val = win1_4.index t (1 : Fin 2) * 128 + 1 * (j 1).val; omega
  refine linear_pay_at (V c main_v33) (V c main_v12) (V c main_v34) (V c main_v35)
    (iblk1 V c 0 t) (iblk1 V c 1 t) (iblk1 V c 2 t) (iblk1 V c 3 t) j (((cfg1.win 4).blk t).view.emb j) (fun k => ?_) ?_ (fun k => ?_) ?_
  · show V c main_v33 (((cfg1.win 0).blk t).view.emb (chanAtB j k)) = V c main_v33 (chanAt (((cfg1.win 4).blk t).view.emb j) k)
    rw [h0 k]
  · show V c main_v12 (((cfg1.win 1).blk t).view.emb (rowColB j)) = V c main_v12 (rowCol (((cfg1.win 4).blk t).view.emb j))
    rw [h1]
  · show V c main_v34 (((cfg1.win 2).blk t).view.emb (weightAtB j k)) = V c main_v34 (weightAt (((cfg1.win 4).blk t).view.emb j) k)
    rw [h2 k]
  · show V c main_v35 (((cfg1.win 3).blk t).view.emb (biasAtB j)) = V c main_v35 (biasAt (((cfg1.win 4).blk t).view.emb j))
    rw [h3]

/-- An index is in point `t`'s output block iff each coordinate is in the block's range on its axis. -/
theorem linear_mem_blk (t : Fin cfg1.N) (i : S100000x128.Idx) :
    i ∈ ((cfg1.win 4).blk t).view.set ↔ ∀ a : Fin 2, win1_4.index t a * S4000x128.size a ≤ (i a).val ∧ (i a).val < win1_4.index t a * S4000x128.size a + S4000x128.size a := by
  show i ∈ ((View.whole main_v36).slice (win1_4.rect t)).set ↔ _
  rw [View.set_slice_whole, Rect.mem_set_unit]
  exact Iff.rfl

/-- Row `n` lies in the block of point `n / 4000`: the blocks cover the array. -/
theorem linear_cover (i : S100000x128.Idx) :
    ∃ t : Fin cfg1.N, (cfg1.win 4).flush t = true ∧ i ∈ ((cfg1.win 4).blk t).view.set := by
  have h0 : (i 0).val < 100000 := (i 0).isLt
  have h1 : (i 1).val < 128 := (i 1).isLt
  have hN : cfg1.N = 25 := N_1
  have ht : (i 0).val / 4000 < cfg1.N := by rw [hN]; omega
  refine ⟨⟨(i 0).val / 4000, ht⟩, flush1_4 _, ?_⟩
  rw [linear_mem_blk]
  obtain ⟨-, -, -, -, -, -, -, -, e8, e9⟩ := linear_idx ⟨(i 0).val / 4000, ht⟩
  have e8' : win1_4.index ⟨(i 0).val / 4000, ht⟩ (0 : Fin 2) = (i 0).val / 4000 := e8
  intro a
  match a with
  | ⟨0, _⟩ =>
    show win1_4.index ⟨(i 0).val / 4000, ht⟩ (0 : Fin 2) * 4000 ≤ (i 0).val ∧ (i 0).val < win1_4.index ⟨(i 0).val / 4000, ht⟩ (0 : Fin 2) * 4000 + 4000
    rw [e8']; omega
  | ⟨1, _⟩ =>
    show win1_4.index ⟨(i 0).val / 4000, ht⟩ (1 : Fin 2) * 128 ≤ (i 1).val ∧ (i 1).val < win1_4.index ⟨(i 0).val / 4000, ht⟩ (1 : Fin 2) * 128 + 128
    rw [e9]; omega

/-- The output array after the region: the linear head over the row-scaled sums, of the arrays found at entry. -/
theorem linear_final (c : Dev nD) :
    (dat1 V c).arrAt 4 cfg1.N = scaledHead (V c main_v33) (V c main_v12) (V c main_v34) (V c main_v35) :=
  (dat1 V c).arrAt_eq_of_cover 4 (scaledHead (V c main_v33) (V c main_v12) (V c main_v34) (V c main_v35))
    (fun t _ => linear_flushed V c t) linear_cover

end Cert.KernelIdeal.Hand

end
-- ==== Proof.KernelTerm.lean ====
/-
  The whole computation as one function of the four arguments.

  With `src`, `dst` the two rows of the edge list, `ρ = 1 / max (inDegree dst) 1` as a column, and `A h` the per-node
  sum of the source rows of `h` over the incoming edges:
      result (n, o) = Σ_k (A (A x · ρ) (n, k) · ρ (n, 0)) · wᵀ (k, o) + b (o),
  where `A x · ρ` scales every row of `A x` by that row's `ρ`. Both programs are proved to end at this function.
-/
import proofs.«161714_j5179730559344_1_alg».proof.Proof.HostStages
import proofs.«161714_j5179730559344_1_alg».proof.Proof.NormalizeArray
import proofs.«161714_j5179730559344_1_alg».proof.Proof.LinearArray

noncomputable section

namespace Cert.KernelIdeal.Hand

open Cert.KernelIdeal Cert.KernelIdeal.Gen Idealize.ShloMosaic

/-- Two mean-propagation hops and the linear head, with the means taken by the reciprocal degree. -/
def twoHopLinear (x : (⟨S100000x128, .f32⟩ : BufTy).Contents (Elt Ideal)) (e : (⟨S2x1600000, .i32⟩ : BufTy).Contents (Elt Ideal))
    (w : (⟨S128x128, .f32⟩ : BufTy).Contents (Elt Ideal)) (b : (⟨S128, .f32⟩ : BufTy).Contents (Elt Ideal)) :
    (⟨S100000x128, .f32⟩ : BufTy).Contents (Elt Ideal) :=
  scaledHead
    (edgeSumOf (F := Ideal) (edgeRow0 (F := Ideal) e) (edgeRow1 (F := Ideal) e)
      (rowScaled (F := Ideal) (edgeSumOf (F := Ideal) (edgeRow0 (F := Ideal) e) (edgeRow1 (F := Ideal) e) x) (recipDegreeOf (F := Ideal) (edgeRow1 (F := Ideal) e))))
    (recipDegreeOf (F := Ideal) (edgeRow1 (F := Ideal) e))
    (transpose S128x128 [1, 0] w transposes_S128x128_S128x128_1_0)
    (shapeCast _ b shapeCasts_S128_S1x128)

end Cert.KernelIdeal.Hand

end
-- ==== Proof.KernelValue.lean ====
/-
  The idealized kernel program ends with its result at `twoHopLinear` of its arguments.

  The result buffer is the second region's output array, which is the linear head over the row-scaled sums of what that
  region finds; what it finds is the host's second edge sum over the first region's output, the first region's
  untouched reciprocal-degree column, the transposed weights and the bias row; the first region's output is the
  row-scaled first edge sum. Substituting one into the other gives the function.
-/
import proofs.«161714_j5179730559344_1_alg».proof.Proof.KernelRun
import proofs.«161714_j5179730559344_1_alg».proof.Proof.KernelTerm

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The arrays between the regions: the node ids and the arguments are untouched by the first region; its output is
    the row-scaled first edge sum; its reciprocal-degree input leaves as it entered. -/
theorem between_src (c : Dev nD) : V2 m ρ c main_v1 = V1 m ρ c main_v1 := W2_of_ne m ρ c main_v1 (by decide)
theorem between_dst (c : Dev nD) : V2 m ρ c main_v3 = V1 m ρ c main_v3 := W2_of_ne m ρ c main_v3 (by decide)
theorem between_weights (c : Dev nD) : V2 m ρ c main_arg2 = V1 m ρ c main_arg2 := W2_of_ne m ρ c main_arg2 (by decide)
theorem between_bias (c : Dev nD) : V2 m ρ c main_arg3 = V1 m ρ c main_arg3 := W2_of_ne m ρ c main_arg3 (by decide)
theorem between_hop (c : Dev nD) : V2 m ρ c main_v23 = rowScaled (F := Ideal) (V1 m ρ c main_v22) (V1 m ρ c main_v12) :=
  (W2_arr m ρ c 2).trans (normalize_final (V1 m ρ) c)
theorem between_recip (c : Dev nD) : V2 m ρ c main_v12 = V1 m ρ c main_v12 :=
  (W2_arr m ρ c 1).trans (normalize_keeps_factor (V1 m ρ) c)

/-- The result buffer's last contents are `twoHopLinear` of the launch arguments. -/
theorem result_eq (c : Dev nD) :
    W4 m ρ c (Proc.devRef .tc main_v36)
      = twoHopLinear (m ((c.tc : Thread nD τ).loc main_arg0)) (m ((c.tc : Thread nD τ).loc main_arg1))
          (m ((c.tc : Thread nD τ).loc main_arg2)) (m ((c.tc : Thread nD τ).loc main_arg3)) := by
  refine (W4_arr m ρ c 4).trans ?_
  rw [linear_final (V3 m ρ) c, second_sum, second_recip, second_weights, second_bias,
    between_src, between_dst, between_hop, between_recip, between_weights, between_bias,
    first_src, first_dst, first_sum, first_recip, first_weights, first_bias]
  rfl

/-- The run, read: the result at `twoHopLinear` of the arguments, the arguments unchanged. -/
theorem run_value : θ_run defs (onTc (τ := τ) (main (F := Ideal))) ⟨m, fun _ => 0, ρ⟩ (fun r => ∀ c : Dev nD,
      r.2.mem ((c.tc : Thread nD τ).loc main_v36)
        = twoHopLinear (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_eq m ρ c), (h c).2⟩) (run_result (F := Ideal) m ρ)

end Cert.KernelIdeal.Hand

end
-- ==== Proof.MeanLaw.lean ====
/-
  The one law of extended-real arithmetic that joins the two programs, and the two constants it is used at.

  A node's mean over its in-edges is written in two ways: the reference divides the edge sum `s` by the clamped
  in-degree `d = max(deg, 1)`; the kernel multiplies `s` by the reciprocal `1 / d` computed once. On the extended
  reals the quotient by a `d ≠ 0` is the product with EReal's inverse `d⁻¹` (which is `0` at the infinities), and
  `1 / d` is `1 · d⁻¹ = d⁻¹`: so `s · (1 / d) = s / d` for EVERY `s` and every `d ≠ 0`, finite or not. The clamp makes
  `d ≥ 1 > 0`, hence `d ≠ 0`, without knowing anything about the degree itself.
-/
import Idealize.ShloMosaic.PureOps.Ideal
import Idealize.ShloMosaic.PureOps.Ideal.Laws

noncomputable section

namespace Cert.MeanLaw

open Idealize.ShloMosaic

/-- The f32 pattern of `1.0` denotes the extended real `1`. -/
theorem ofBits_one : Ideal.ofBits .f32 0x3F800000#32 = 1 := by
  simp [Ideal.ofBits, Ideal.ieee, -EReal.coe_mul]; norm_num

/-- The f32 pattern of `+0.0` denotes `0`. -/
theorem ofBits_zero : Ideal.ofBits .f32 0x00000000#32 = 0 := Ideal.ofBits_zero_f32

/-- A value clamped below by `1` is not zero. -/
theorem max_one_ne_zero (x : EReal) : max x 1 ≠ 0 :=
  (lt_of_lt_of_le zero_lt_one (le_max_right x 1)).ne'

/-- Multiplying by the reciprocal of a nonzero `d` is dividing by `d`, at every extended real. -/
theorem mul_recip (s d : EReal) (hd : d ≠ 0) : s * Ideal.div 1 d = Ideal.div s d := by
  rw [Ideal.div, Ideal.div, if_neg hd, if_neg hd, one_mul]

/-- The same with the clamp in place: the kernel's `s · (1 / max(deg, 1))` is the reference's `s / max(deg, 1)`. -/
theorem mul_recip_clamped (s deg : EReal) : s * Ideal.div 1 (max deg 1) = Ideal.div s (max deg 1) :=
  mul_recip s _ (max_one_ne_zero deg)

end Cert.MeanLaw

end
-- ==== Proof.RecipColumn.lean ====
/-
  The reciprocal-degree column read at a row: `1 / max (deg n, 1)`, with the two `1.0` patterns read as the number one.
-/
import proofs.«161714_j5179730559344_1_alg».proof.Proof.HostStages
import proofs.«161714_j5179730559344_1_alg».proof.Proof.NormalizeArray
import proofs.«161714_j5179730559344_1_alg».proof.Proof.MeanLaw
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic

/-- The node of an array index `(n, k)`. -/
abbrev nodeOf (i : S100000x128.Idx) : S100000.Idx := fun a => match a with
  | ⟨0, _⟩ => ⟨(i 0).val, (i 0).isLt⟩

/-- A host quotient of two per-node vectors, at a node. -/
theorem hostDiv_at (A B : FVec Ideal S100000 .f32) (n : S100000.Idx) : Host.divf A B n = Ideal.div (A n) (B n) := rfl

/-- A maximum of two per-node vectors, at a node. -/
theorem max_at (A B : FVec Ideal S100000 .f32) (n : S100000.Idx) : maximumf A B n = max (A n) (B n) := rfl

/-- The splat of `1.0` over the nodes, at a node, is the number one. -/
theorem ones_at (n : S100000.Idx) :
    broadcastInDim S100000 ![] bcast_S_S100000 (constant (F := Ideal) S_ .f32 0x3F800000#32) n = 1 :=
  (broadcastInDim_apply _ bcast_S_S100000 _ n ValueIdx.ix0 (fun a => a.elim0)).trans Cert.MeanLaw.ofBits_one

/-- The reciprocal column at a row: one over the clamped degree of that node. -/
theorem recip_at (dst : (⟨S1600000, .i32⟩ : BufTy).Contents (Elt Ideal)) (i : S100000x128.Idx) :
    recipDegreeOf (F := Ideal) dst (rowCol i) = Ideal.div 1 (max (inDegreeOf (F := Ideal) dst (nodeOf i)) 1) := by
  unfold recipDegreeOf
  rw [shapeCast_apply _ _ (rowCol i) (nodeOf i) (by
    rw [Shape.rowMajor_val_two, Shape.rowMajor_val_one]
    show (i 0).val = (i 0).val * 1 + 0
    omega)]
  unfold clampedDegreeOf
  rw [hostDiv_at, max_at, ones_at]

end Cert.KernelIdeal.Hand

end
-- ==== Proof.RefValue.lean ====
/-
  The idealized reference computes `twoHopLinear` of its arguments.

  The reference forms the same edge sums with the same host gather and scatter-add (so those stay closed: the two
  programs apply one function to values proved equal), but takes each mean by DIVIDING the edge sum by the clamped
  degree, broadcast along the channels, where the kernel multiplies by the reciprocal column. `Cert.MeanLaw` joins the
  two at every node, first for hop one — which makes the second hop's gather read the same array in both programs —
  and again inside the linear head, whose `dot_general` is the sum over the 128 contracted channels at the ideal values.
-/
import proofs.«161714_j5179730559344_1_alg».proof.Proof.Gen.ReferenceIdeal.Read
import proofs.«161714_j5179730559344_1_alg».proof.Proof.KernelTerm
import proofs.«161714_j5179730559344_1_alg».proof.Proof.MeanLaw
import proofs.«161714_j5179730559344_1_alg».proof.Proof.RecipColumn

set_option maxRecDepth 16384

noncomputable section

namespace Cert.ReferenceIdeal.Hand

open Cert.ReferenceIdeal Cert.ReferenceIdeal.Gen Cert.ReferenceIdeal.Read Idealize.ShloMosaic
open Cert.KernelIdeal.Hand (edgeRow0 edgeRow1 edgeSumOf inDegreeOf clampedDegreeOf recipDegreeOf rowScaled rowCol scaledHead chanAt weightAt biasAt
  twoHopLinear nodeOf recip_at)

variable (x : (⟨S100000x128, .f32⟩ : BufTy).Contents (Elt Ideal)) (e : (⟨S2x1600000, .i32⟩ : BufTy).Contents (Elt Ideal))
  (w : (⟨S128x128, .f32⟩ : BufTy).Contents (Elt Ideal)) (b : (⟨S128, .f32⟩ : BufTy).Contents (Elt Ideal))

/-! ## The shared host stages are the same functions -/

theorem hop1_sum : val_main_v13 (F := Ideal) x e
    = edgeSumOf (F := Ideal) (edgeRow0 (F := Ideal) e) (edgeRow1 (F := Ideal) e) x := rfl

theorem degree1 : val_main_v17 (F := Ideal) e = inDegreeOf (F := Ideal) (edgeRow1 (F := Ideal) e) := rfl

theorem degree2 : val_main_v36 (F := Ideal) e = inDegreeOf (F := Ideal) (edgeRow1 (F := Ideal) e) := rfl

theorem hop2_sum : val_main_v32 (F := Ideal) x e
    = edgeSumOf (F := Ideal) (edgeRow0 (F := Ideal) e) (edgeRow1 (F := Ideal) e) (val_main_v22 (F := Ideal) x e) := rfl

/-! ## The clamped degree, broadcast along the channels, at an index -/

theorem clamp1 (i : S100000x128.Idx) :
    val_main_v21 (F := Ideal) e i = max (inDegreeOf (F := Ideal) (edgeRow1 (F := Ideal) e) (nodeOf i)) 1 := by
  rw [val_main_v21_apply, val_main_v20_apply, val_main_v19_apply, val_main_v18_apply, val_main_cst_3_apply, degree1]
  have hn : idx_main_v20 (idx_main_v21 i) = nodeOf i := funext fun a => match a with | ⟨0, _⟩ => rfl
  show max (inDegreeOf (F := Ideal) (edgeRow1 (F := Ideal) e) (idx_main_v20 (idx_main_v21 i))) (Ideal.ofBits .f32 0x3F800000#32) = _
  rw [hn, Cert.MeanLaw.ofBits_one]

theorem clamp2 (i : S100000x128.Idx) :
    val_main_v40 (F := Ideal) e i = max (inDegreeOf (F := Ideal) (edgeRow1 (F := Ideal) e) (nodeOf i)) 1 := by
  rw [val_main_v40_apply, val_main_v39_apply, val_main_v38_apply, val_main_v37_apply, val_main_cst_9_apply, degree2]
  have hn : idx_main_v39 (idx_main_v40 i) = nodeOf i := funext fun a => match a with | ⟨0, _⟩ => rfl
  show max (inDegreeOf (F := Ideal) (edgeRow1 (F := Ideal) e) (idx_main_v39 (idx_main_v40 i))) (Ideal.ofBits .f32 0x3F800000#32) = _
  rw [hn, Cert.MeanLaw.ofBits_one]

/-! ## Hop one: the quotient is the product with the reciprocal -/

theorem hop1_mean : val_main_v22 (F := Ideal) x e
    = rowScaled (F := Ideal) (edgeSumOf (F := Ideal) (edgeRow0 (F := Ideal) e) (edgeRow1 (F := Ideal) e) x)
        (recipDegreeOf (F := Ideal) (edgeRow1 (F := Ideal) e)) := by
  funext i
  rw [val_main_v22_apply, clamp1, hop1_sum]
  show Ideal.div _ _ = _ * recipDegreeOf (F := Ideal) (edgeRow1 (F := Ideal) e) (rowCol i)
  rw [recip_at, Cert.MeanLaw.mul_recip_clamped]

/-! ## The result -/

/-- Hop two's edge sum, in both programs, is the edge sum of the row-scaled hop-one sum. -/
theorem hop2_eq : val_main_v32 (F := Ideal) x e
    = edgeSumOf (F := Ideal) (edgeRow0 (F := Ideal) e) (edgeRow1 (F := Ideal) e)
        (rowScaled (F := Ideal) (edgeSumOf (F := Ideal) (edgeRow0 (F := Ideal) e) (edgeRow1 (F := Ideal) e) x)
          (recipDegreeOf (F := Ideal) (edgeRow1 (F := Ideal) e))) := by
  rw [hop2_sum, hop1_mean]

/-- A sum of products plus a constant, rewritten summand by summand. -/
theorem head_congr (Q S : S100000x128.Idx → EReal) (R : S100000x1.Idx → EReal) (WT' WT : S128x128.Idx → EReal) (c' c : EReal)
    (i : S100000x128.Idx)
    (hQ : ∀ k : Fin 128, Q (lidx_main_v43 i k) = S (chanAt i k) * R (rowCol i))
    (hW : ∀ k : Fin 128, WT' (ridx_main_v43 i k) = WT (weightAt i k)) (hc : c' = c) :
    (∑ k : Fin 128, Q (lidx_main_v43 i k) * WT' (ridx_main_v43 i k)) + c'
      = (∑ k : Fin 128, (S (chanAt i k) * R (rowCol i)) * WT (weightAt i k)) + c := by
  simp only [hQ, hW, hc]

/-- The reference's transposed weights are the kernel's, read at the kernel's index. -/
theorem weights_at (i : S100000x128.Idx) (k : Fin 128) :
    val_main_v42 (F := Ideal) w (ridx_main_v43 i k) = transpose S128x128 [1, 0] w transposes_S128x128_S128x128_1_0 (weightAt i k) := by
  have hr : ridx_main_v43 i k = weightAt i k := funext fun a => match a with | ⟨0, _⟩ => rfl | ⟨1, _⟩ => rfl
  rw [hr]
  rfl

/-- The bias, broadcast by the reference and reshaped to one row by the kernel, read at a column. -/
theorem bias_at (i : S100000x128.Idx) :
    b (idx_main_v44 (idx_main_v45 i)) = shapeCast _ b Cert.KernelIdeal.Gen.shapeCasts_S128_S1x128 (biasAt i) :=
  (shapeCast_apply b _ (biasAt i) (idx_main_v44 (idx_main_v45 i)) (by
    rw [Shape.rowMajor_val_two, Shape.rowMajor_val_one]
    show (i 1).val = 0 * 128 + (i 1).val
    omega)).symm

/-- One summand's left factor: the reference's hop-two mean at `(n, k)` is the kernel's row-scaled hop-two sum there. -/
theorem mean2_at (i : S100000x128.Idx) (k : Fin 128) :
    val_main_v41 (F := Ideal) x e (lidx_main_v43 i k)
      = edgeSumOf (F := Ideal) (edgeRow0 (F := Ideal) e) (edgeRow1 (F := Ideal) e)
          (rowScaled (F := Ideal) (edgeSumOf (F := Ideal) (edgeRow0 (F := Ideal) e) (edgeRow1 (F := Ideal) e) x)
            (recipDegreeOf (F := Ideal) (edgeRow1 (F := Ideal) e))) (chanAt i k)
        * recipDegreeOf (F := Ideal) (edgeRow1 (F := Ideal) e) (rowCol i) := by
  have hn : nodeOf (lidx_main_v43 i k) = nodeOf i := funext fun a => match a with | ⟨0, _⟩ => rfl
  have hl : lidx_main_v43 i k = chanAt i k := funext fun a => match a with | ⟨0, _⟩ => rfl | ⟨1, _⟩ => rfl
  rw [val_main_v41_apply, clamp2, hop2_eq, hn, hl, recip_at, Cert.MeanLaw.mul_recip_clamped]
  rfl

theorem result_eq : val_main_v46 (F := Ideal) x e w b = twoHopLinear x e w b := by
  funext i
  rw [val_main_v46_apply, val_main_v43_apply, val_main_v45_apply, val_main_v44_apply]
  unfold twoHopLinear
  exact head_congr _ _ _ _ _ _ _ i (fun k => mean2_at x e i k) (fun k => weights_at w i k) (bias_at b i)

end Cert.ReferenceIdeal.Hand

end
-- ==== Proof.lean ====
/-
  A two-hop mean aggregation over a graph followed by a linear layer: the Pallas program against its jnp reference.

  Both programs compute, for 100000 nodes with 128 channels and 1600000 edges, two rounds of "replace each node's row
  by the mean of its in-neighbours' rows" and then `h · Wᵀ + b`. The gather of the source rows and the scatter-add to
  the destination rows are the same host operations in both. The programs differ in where the mean's division happens:
  the reference divides each edge sum by `max (deg, 1)`; the kernel computes the column `1 / max (deg, 1)` once on the
  host and multiplies by it inside its two regions (the second fused with the matrix product, taken blockwise over
  4000 rows on the matrix unit after a change of float format). Over the extended reals a change of format is the
  identity, a matrix product is its sum over the contracted index whatever the tiling, and `s · (1 / d) = s / d` for
  every `s` once `d ≠ 0` — which the clamp by one guarantees. So both end at `twoHopLinear` of the arguments.

  The three frames are the generated ones (the reference's is its generated run with the result dropped); the
  idealization rewrote nothing, so `preserves` is `True`.
-/
import proofs.«161714_j5179730559344_1_alg».proof.Defs
import proofs.«161714_j5179730559344_1_alg».proof.Proof.Gen.Kernel
import proofs.«161714_j5179730559344_1_alg».proof.Proof.Gen.Kernel.Frame
import proofs.«161714_j5179730559344_1_alg».proof.Proof.Gen.KernelIdeal
import proofs.«161714_j5179730559344_1_alg».proof.Proof.Gen.KernelIdeal.Frame
import proofs.«161714_j5179730559344_1_alg».proof.Proof.Gen.ReferenceIdeal
import proofs.«161714_j5179730559344_1_alg».proof.Proof.Gen.ReferenceIdeal.Run
import proofs.«161714_j5179730559344_1_alg».proof.Proof.Gen.ReferenceIdeal.Read
import proofs.«161714_j5179730559344_1_alg».proof.Proof.Gen.Pre_finite_inputs
import proofs.«161714_j5179730559344_1_alg».proof.Proof.KernelValue
import proofs.«161714_j5179730559344_1_alg».proof.Proof.RefValue

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both programs end with their result at `twoHopLinear` of those
    arguments: the kernel by its run read through the two regions, the reference by its run read one operation at a
    time. -/
theorem algebraic : Cert.algebraic_KernelIdeal_ReferenceIdeal := by
  intro m ρ m' ρ' _ hagree
  refine ⟨fun c => Cert.KernelIdeal.Hand.twoHopLinear
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v46_eq, Cert.ReferenceIdeal.Hand.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
